-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x68 : Shape := ⟨2, ![64, 68]⟩
abbrev S68 : Shape := ⟨1, ![68]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x68 : S_.BroadcastsInDim S64x68 (![] : Fin 0 → Fin S64x68.rank)
  reducesTo_S64x68_S_d0_1 : S64x68.ReducesTo [0, 1] S_
  bcast_S_S68 : S_.BroadcastsInDim S68 (![] : Fin 0 → Fin S68.rank)
  reducesTo_S68_S_d0 : S68.ReducesTo [0] S_

variable [Facts]

def fn_part2 {F : FTy → Type} [FloatOps F] (main_arg8 : FVec F S64x68 .f32) (main_arg9 : FVec F S68 .f32) (main_arg10 : FVec F S64x68 .f32) (main_v33 : IVec S_ 1) : IVec S_ 1 :=
  let main_v34 : FVec F S64x68 .f32 := Host.absf main_arg8
  let main_cst_12 : FVec F S_ .f32 := constant S_ .f32 0x7F800000#32
  let main_v35 : FVec F S64x68 .f32 := broadcastInDim S64x68 ![] bcast_S_S64x68 main_cst_12
  let main_v36 : IVec S64x68 1 := cmpf .olt main_v34 main_v35
  let main_c_13 : IVec S_ 1 := constantI S_ 1 1#1
  let main_v37 : IVec S_ 1 := (fun x v => Host.reduce IntOp.andi x v reducesTo_S64x68_S_d0_1 h_S_) main_v36 main_c_13
  let main_v38 : IVec S_ 1 := andi main_v33 main_v37
  let main_v39 : FVec F S68 .f32 := Host.absf main_arg9
  let main_cst_14 : FVec F S_ .f32 := constant S_ .f32 0x7F800000#32
  let main_v40 : FVec F S68 .f32 := broadcastInDim S68 ![] bcast_S_S68 main_cst_14
  let main_v41 : IVec S68 1 := cmpf .olt main_v39 main_v40
  let main_c_15 : IVec S_ 1 := constantI S_ 1 1#1
  let main_v42 : IVec S_ 1 := (fun x v => Host.reduce IntOp.andi x v reducesTo_S68_S_d0 h_S_) main_v41 main_c_15
  let main_v43 : IVec S_ 1 := andi main_v38 main_v42
  let main_v44 : FVec F S64x68 .f32 := Host.absf main_arg10
  let main_cst_16 : FVec F S_ .f32 := constant S_ .f32 0x7F800000#32
  let main_v45 : FVec F S64x68 .f32 := broadcastInDim S64x68 ![] bcast_S_S64x68 main_cst_16
  let main_v46 : IVec S64x68 1 := cmpf .olt main_v44 main_v45
  let main_c_17 : IVec S_ 1 := constantI S_ 1 1#1
  let main_v47 : IVec S_ 1 := (fun x v => Host.reduce IntOp.andi x v reducesTo_S64x68_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x68 .f32) (main_arg9 : FVec F S68 .f32) (main_arg10 : FVec F S64x68 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x3 .f32) (main_arg1 : IVec S2x1600000 32) (main_arg2 : FVec F S3x64 .f32) (main_arg3 : FVec F S64 .f32) (main_arg4 : FVec F S3x64 .f32) (main_arg5 : FVec F S64x64 .f32) (main_arg6 : FVec F S64 .f32) (main_arg7 : FVec F S64x64 .f32) (main_arg8 : FVec F S64x68 .f32) (main_arg9 : FVec F S68 .f32) (main_arg10 : FVec F S64x68 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x68 : Shape := ⟨2, ![64, 68]⟩
abbrev S68 : Shape := ⟨1, ![68]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S10000x3 : Shape := ⟨2, ![10000, 3]⟩
abbrev S10000x64 : Shape := ⟨2, ![10000, 64]⟩
abbrev S1600000x64 : Shape := ⟨2, ![1600000, 64]⟩
abbrev S1x68 : Shape := ⟨2, ![1, 68]⟩
abbrev S100000x68 : Shape := ⟨2, ![100000, 68]⟩
abbrev S10000x68 : Shape := ⟨2, ![10000, 68]⟩

abbrev nBuf : Space → Nat
  | .hbm => 96
  | .vmem => 27
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S3x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x68, .f32⟩
  | .hbm, ⟨9, _⟩ => ⟨S68, .f32⟩
  | .hbm, ⟨10, _⟩ => ⟨S64x68, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x3, .f32⟩
  | .hbm, ⟨24, _⟩ => ⟨S_, .f32⟩
  | .hbm, ⟨25, _⟩ => ⟨S100000x3, .f32⟩
  | .hbm, ⟨26, _⟩ => ⟨S1600000x1, .i32⟩
  | .hbm, ⟨27, _⟩ => ⟨S100000x3, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x3, .f32⟩
  | .hbm, ⟨39, _⟩ => ⟨S100000x3, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S1x68, .f32⟩
  | .hbm, ⟨95, _⟩ => ⟨S100000x68, .f32⟩
  | .local _ .vmem, ⟨0, _⟩ => ⟨S10000x3, .f32⟩
  | .local _ .vmem, ⟨1, _⟩ => ⟨S10000x3, .f32⟩
  | .local _ .vmem, ⟨2, _⟩ => ⟨S10000x3, .f32⟩
  | .local _ .vmem, ⟨3, _⟩ => ⟨S10000x3, .f32⟩
  | .local _ .vmem, ⟨4, _⟩ => ⟨S3x64, .f32⟩
  | .local _ .vmem, ⟨5, _⟩ => ⟨S1x64, .f32⟩
  | .local _ .vmem, ⟨6, _⟩ => ⟨S3x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x68, .f32⟩
  | .local _ .vmem, ⟨23, _⟩ => ⟨S1x68, .f32⟩
  | .local _ .vmem, ⟨24, _⟩ => ⟨S64x68, .f32⟩
  | .local _ .vmem, ⟨25, _⟩ => ⟨S10000x68, .f32⟩
  | .local _ .vmem, ⟨26, _⟩ => ⟨S10000x68, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x68 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x68 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x68 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x68 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  shapeCasts_S64_S1x64 : S64.ShapeCasts S1x64
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S68_S1x68 : S68.ShapeCasts S1x68
  inb_S64x68_S64x68_0_0 : ∀ a, (![0, 0] : Fin 2 → Nat) a + S64x68.size a ≤ S64x68.size a
  h_S64x68 : 0 < S64x68.numel
  inb_S1x68_S1x68_0_0 : ∀ a, (![0, 0] : Fin 2 → Nat) a + S1x68.size a ≤ S1x68.size a
  h_S1x68 : 0 < S1x68.numel
  shapeCasts_S1x68_S1x68 : S1x68.ShapeCasts S1x68
  broadcasts_S1x68_S10000x68 : S1x68.Broadcasts S10000x68
  inb_S10000x68_S10000x68_0_0 : ∀ a, (![0, 0] : Fin 2 → Nat) a + S10000x68.size a ≤ S10000x68.size a
  h_S10000x68 : 0 < S10000x68.numel
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S10000x3_S3x64_S10000x64_1_0_0_1_n_n_wf : DotDims.WF S10000x3 S3x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x68_S10000x68_1_0_0_1_n_n_wf : DotDims.WF S10000x64 S64x68 S10000x68 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S100000x3.size a
  hwx0_1 : ∀ i : grid0.Coords, EltTy.bits .f32 = 32 ∨ (Rect.block (s := S100000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x68.size a ≤ S64x68.size a
  hwx2_2 : ∀ i : grid2.Coords, EltTy.bits .f32 = 32 ∨ (Rect.block (s := S64x68) S64x68.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x68.size a ≤ S1x68.size a
  hwx2_3 : ∀ i : grid2.Coords, EltTy.bits .f32 = 32 ∨ (Rect.block (s := S1x68) S1x68.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x68.size a ≤ S64x68.size a
  hwx2_4 : ∀ i : grid2.Coords, EltTy.bits .f32 = 32 ∨ (Rect.block (s := S64x68) S64x68.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x68.size a ≤ S100000x68.size a
  hwx2_5 : ∀ i : grid2.Coords, EltTy.bits .f32 = 32 ∨ (Rect.block (s := S100000x68) S10000x68.size (cc2_transform_5 i) (hinb2_5 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x68_S10000x68_1_0_0_1_n_n : DotDims S10000x64 S64x68 S10000x68 where
  lhsContracting := [1]
  rhsContracting := [0]
  lhsNonContracting := [0]
  rhsNonContracting := [1]
  lhsBatch := []
  rhsBatch := []
  wf := dot_S10000x64_S64x68_S10000x68_1_0_0_1_n_n_wf

abbrev win0_0 : Pipeline.Window sig grid0 :=
  Pipeline.Window.ofSpec (Memref.whole main_v22) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x68.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x68.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x68.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x68.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x68 : Shape := ⟨2, ![64, 68]⟩
abbrev S68 : Shape := ⟨1, ![68]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x68 : Shape := ⟨2, ![100000, 68]⟩
abbrev S1x68 : Shape := ⟨2, ![1, 68]⟩

abbrev nBuf : Space → Nat
  | .hbm => 114
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S3x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x68, .f32⟩
  | .hbm, ⟨9, _⟩ => ⟨S68, .f32⟩
  | .hbm, ⟨10, _⟩ => ⟨S64x68, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x3, .f32⟩
  | .hbm, ⟨24, _⟩ => ⟨S_, .f32⟩
  | .hbm, ⟨25, _⟩ => ⟨S100000x3, .f32⟩
  | .hbm, ⟨26, _⟩ => ⟨S1600000x1, .i32⟩
  | .hbm, ⟨27, _⟩ => ⟨S100000x3, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x3, .f32⟩
  | .hbm, ⟨39, _⟩ => ⟨S100000x3, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x64, .f32⟩
  | .hbm, ⟨107, _⟩ => ⟨S100000x64, .f32⟩
  | .hbm, ⟨108, _⟩ => ⟨S100000x68, .f32⟩
  | .hbm, ⟨109, _⟩ => ⟨S1x68, .f32⟩
  | .hbm, ⟨110, _⟩ => ⟨S100000x68, .f32⟩
  | .hbm, ⟨111, _⟩ => ⟨S100000x68, .f32⟩
  | .hbm, ⟨112, _⟩ => ⟨S100000x68, .f32⟩
  | .hbm, ⟨113, _⟩ => ⟨S100000x68, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S68_S1x68_1 : S68.BroadcastsInDim S1x68 (![1] : Fin 1 → Fin S1x68.rank)
  bcast_S1x68_S100000x68_0_1 : S1x68.BroadcastsInDim S100000x68 (![0, 1] : Fin 2 → Fin S100000x68.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x3_S3x64_S100000x64_1_0_0_1_n_n_wf : DotDims.WF S100000x3 S3x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x68_S100000x68_1_0_0_1_n_n_wf : DotDims.WF S100000x64 S64x68 S100000x68 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x68_S100000x68_1_0_0_1_n_n : DotDims S100000x64 S64x68 S100000x68 where
  lhsContracting := [1]
  rhsContracting := [0]
  lhsNonContracting := [0]
  rhsNonContracting := [1]
  lhsBatch := []
  rhsBatch := []
  wf := dot_S100000x64_S64x68_S100000x68_1_0_0_1_n_n_wf

class Facts : Prop extends Facts₀ where

variable [Facts]
-- ==== Proof.KernelRun.lean ====
import proofs.«134776_j30013231464923_1_alg».proof.Proof.Gen.KernelIdeal.Frame

/-!
The kernel program's run with its result buffer named.

The program is three pipelined regions between stretches of host operations; the generated frame follows the buffer
contents through the six segments as a fold (`Gen.W0` … `Gen.W6`) and reads the argument buffers off the last
boundary.  Here the same launch is read at one more buffer: after every weakly fair execution the result buffer
holds what the fold leaves there, `Gen.W6 m ρ c` at the result's reference, and the arguments are as launched.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at its reference, and every argument buffer its launch contents. -/
theorem run_out : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.LibSageLayer.lean ====
import Idealize.ShloMosaic.PureOps.Ideal
import Idealize.ShloMosaic.Lib.ValueIdx

/-!
# One graph-convolution layer's dense step on the extended reals

A mean-aggregating graph convolution with a root weight computes, for node `p` and output feature `q`,

  out[p, q] = (∑ₖ mean[p, k] · Wl[k, q] + b[q]) + ∑ₖ x[p, k] · Wr[k, q],

where `mean` holds each node's neighbourhood mean and `x` its own features.  `combine` is that function of the five
arrays, index by index, over the extended reals; `relu` is the entrywise maximum with zero.  Addition of extended
reals is commutative and associative (also at the infinities), so adding the bias after both products gives the same
entry: `combine_bias_last`.  No finiteness of any entry is used.
-/

noncomputable section

open scoped BigOperators

namespace Cert.SageLayer

open Idealize.ShloMosaic Idealize.ShloMosaic.ValueIdx

/-- The dense step of one layer: the neighbourhood mean through the left weight, plus the bias, plus the node's own
    features through the right weight. -/
def combine {n d e : ℕ} (mean x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun i => (∑ k : Fin d, mean (ix2 (i 0) k) * wl (ix2 k (i 1)) + b (ix1 (i 1)))
    + ∑ k : Fin d, x (ix2 (i 0) k) * wr (ix2 k (i 1))

/-- The entrywise maximum with zero. -/
def relu {s : Shape} (v : s.Idx → EReal) : s.Idx → EReal := fun i => max (v i) 0

/-- The dense step at the entry `(p, q)`. -/
theorem combine_apply {n d e : ℕ} (mean x : (⟨2, ![n, d]⟩ : Shape).Idx → EReal) (wl wr : (⟨2, ![d, e]⟩ : Shape).Idx → EReal)
    (b : (⟨1, ![e]⟩ : Shape).Idx → EReal) (p : Fin n) (q : Fin e) :
    combine mean x wl wr b (ix2 p q)
      = (∑ k : Fin d, mean (ix2 p k) * wl (ix2 k q) + b (ix1 q)) + ∑ k : Fin d, x (ix2 p k) * wr (ix2 k q) := rfl

/-- The same entry with the bias added last: `(A + B) + b = (A + b) + B` in any commutative additive monoid. -/
theorem combine_bias_last {n d e : ℕ} (mean x : (⟨2, ![n, d]⟩ : Shape).Idx → EReal) (wl wr : (⟨2, ![d, e]⟩ : Shape).Idx → EReal)
    (b : (⟨1, ![e]⟩ : Shape).Idx → EReal) (p : Fin n) (q : Fin e) :
    (∑ k : Fin d, mean (ix2 p k) * wl (ix2 k q) + ∑ k : Fin d, x (ix2 p k) * wr (ix2 k q)) + b (ix1 q)
      = combine mean x wl wr b (ix2 p q) :=
  (add_right_comm _ _ _).trans (combine_apply mean x wl wr b p q).symm

/-- `relu` at an entry. -/
theorem relu_apply {s : Shape} (v : s.Idx → EReal) (i : s.Idx) : relu v i = max (v i) 0 := rfl

end Cert.SageLayer

end
-- ==== Proof.Layer0.lean ====
import proofs.«134776_j30013231464923_1_alg».proof.Proof.Gen.KernelIdeal.Frame
import proofs.«134776_j30013231464923_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

/-!
# Layer 1's dense step, as the kernel computes it

The region runs ten grid points; point `t` stages rows `10000·t … 10000·t + 9999` of the neighbourhood means and of the
node features, the two weight matrices and the bias row whole, and writes back the same rows of the result.  At the
exact instance one entry `(p, q)` of a point's result block is

  max((∑ₖ mean[p, k] · Wl[k, q] + ∑ₖ x[p, k] · Wr[k, q]) + b[0, q], 0)

(the roundings to bf16 are the identity there, and a matrix product into a zero accumulator is the plain sum).  Row `p`
of block `t` is row `10000·t + p` of the arrays, the ten blocks tile the result array, and so the array ends at
`relu (combine …)` of the arrays the region finds — with the bias added after both products instead of between them,
which is the same extended real.
-/

set_option maxRecDepth 16384

noncomputable section

open scoped BigOperators

namespace Cert.KernelIdeal.Layer0

open Cert.KernelIdeal Cert.KernelIdeal.Gen Cert.SageLayer
open Idealize.ShloMosaic Idealize.ShloMosaic.TcCoe Idealize.ShloMosaic.ValueIdx Idealize.SL.Sem
open Idealize.ShloMosaic.Pipeline (Dat)

/-! ## The matrix product at an entry -/

theorem lhs_row (i : S10000x64.Idx) (z : dot_S10000x3_S3x64_S10000x64_1_0_0_1_n_n.contr.Idx) : (dot_S10000x3_S3x64_S10000x64_1_0_0_1_n_n.lhsIdx i z 0).val = (i 0).val := by
  unfold DotDims.lhsIdx
  rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
  rfl
theorem lhs_col (i : S10000x64.Idx) (z : dot_S10000x3_S3x64_S10000x64_1_0_0_1_n_n.contr.Idx) : (dot_S10000x3_S3x64_S10000x64_1_0_0_1_n_n.lhsIdx i z 1).val = (z ⟨0, by decide⟩).val :=
  dot_S10000x3_S3x64_S10000x64_1_0_0_1_n_n.lhsIdx_val_of_single rfl i z
theorem rhs_row (i : S10000x64.Idx) (z : dot_S10000x3_S3x64_S10000x64_1_0_0_1_n_n.contr.Idx) : (dot_S10000x3_S3x64_S10000x64_1_0_0_1_n_n.rhsIdx i z 0).val = (z ⟨0, by decide⟩).val :=
  dot_S10000x3_S3x64_S10000x64_1_0_0_1_n_n.rhsIdx_val_of_single rfl i z
theorem rhs_col (i : S10000x64.Idx) (z : dot_S10000x3_S3x64_S10000x64_1_0_0_1_n_n.contr.Idx) : (dot_S10000x3_S3x64_S10000x64_1_0_0_1_n_n.rhsIdx i z 1).val = (i 1).val := by
  unfold DotDims.rhsIdx
  rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
  rfl

/-- A block's product with a weight matrix, accumulated from zero, at the entry `(p, q)`: the sum over the 3 shared
    coordinates of row `p` times column `q`. -/
theorem matmul_entry (l : FVec Ideal S10000x3 .bf16) (r : FVec Ideal S3x64 .bf16) (p : Fin 10000) (q : Fin 64) :
    matmul dot_S10000x3_S3x64_S10000x64_1_0_0_1_n_n none l r (constant (F := Ideal) S10000x64 .f32 0x00000000#32) (ix2 p q)
      = ∑ k : Fin 3, l (ix2 p k) * r (ix2 k q) := by
  simp only [matmul]
  rw [Ideal.matmul_constant_zero_apply, ← Equiv.sum_comp (contrEquiv1 dot_S10000x3_S3x64_S10000x64_1_0_0_1_n_n 3 rfl rfl).symm]
  refine Finset.sum_congr rfl fun k _ => ?_
  have hk := contrEquiv1_symm_val dot_S10000x3_S3x64_S10000x64_1_0_0_1_n_n 3 rfl rfl k
  have el : dot_S10000x3_S3x64_S10000x64_1_0_0_1_n_n.lhsIdx (ix2 p q) ((contrEquiv1 dot_S10000x3_S3x64_S10000x64_1_0_0_1_n_n 3 rfl rfl).symm k) = ix2 p k := funext fun a => Fin.ext (by
    match a with
    | ⟨0, _⟩ => exact lhs_row _ _
    | ⟨1, _⟩ => exact (lhs_col _ _).trans hk)
  have er : dot_S10000x3_S3x64_S10000x64_1_0_0_1_n_n.rhsIdx (ix2 p q) ((contrEquiv1 dot_S10000x3_S3x64_S10000x64_1_0_0_1_n_n 3 rfl rfl).symm k) = ix2 k q := funext fun a => Fin.ext (by
    match a with
    | ⟨0, _⟩ => exact (rhs_row _ _).trans hk
    | ⟨1, _⟩ => exact rhs_col _ _)
  rw [el, er]

/-! ## The body's stored value at an entry -/

/-- The value the body stores, at the entry `(p, q)` of its block, from the five staged blocks. -/
theorem stored_entry (x0 x1 : Vec Ideal S10000x3 .f32) (x2 x4 : Vec Ideal S3x64 .f32) (x3 : Vec Ideal S1x64 .f32)
    (p : Fin 10000) (q : Fin 64) :
    k0_pay1 (F := Ideal) x0 x1 x2 x4 x3 (ix2 p q)
      = max ((∑ k : Fin 3, x0 (ix2 p k) * x2 (ix2 k q) + ∑ k : Fin 3, x1 (ix2 p k) * x4 (ix2 k q)) + x3 (ix2 (0 : Fin 1) q)) 0 := by
  unfold k0_pay1
  simp only [shapeCast_self]
  show max (((matmul (F := Ideal) dot_S10000x3_S3x64_S10000x64_1_0_0_1_n_n none _ _ _ (ix2 p q) : EReal) + (matmul (F := Ideal) dot_S10000x3_S3x64_S10000x64_1_0_0_1_n_n none _ _ _ (ix2 p q) : EReal)) + broadcastTo S10000x64 x3 _ (ix2 p q))
      (Ideal.ofBits .f32 0x00000000#32) = _
  rw [matmul_entry, matmul_entry, broadcastTo_1b_ab_apply, Ideal.ofBits_zero_f32]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the result array holds after the region, as one function of the arrays the region finds. -/
def result (c : Dev nD) : S100000x64.Idx → EReal :=
  relu (combine (n := 100000) (d := 3) (e := 64) (V c main_v22) (V c main_arg0) (V c main_arg2) (V c main_arg4) (fun j => V c main_v23 (ix2 (0 : Fin 1) (j 0))))

/-- The index maps over the grid: the two row-blocked inputs move with the output's row block, every other block
    index is zero, and the output's row block is below ten. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem block_onto : ∀ b : Fin 10, ∃ t : Fin cfg0.N, win0_5.index t = ![b.val, 0] :=
  (by decide +kernel : ∀ b : Fin 10, ∃ t : Fin grid0.N, win0_5.index t = ![b.val, 0])

/-- A row-blocked input's block at point `t`, entry `(p, k)`: the array's row `i0`, which is row `p` of the output's
    block. -/
theorem read_rows (c : Dev nD) (t : Fin cfg0.N) (w : Fin 2) (p : Fin 10000) (k : Fin 3) (i0 : Fin 100000)
    (hi : i0.val = win0_5.index t (0 : Fin 2) * 10000 + p.val) :
    (iblk0 V c 0 t (ix2 p k) = V c main_v22 (ix2 i0 k)) ∧ (iblk0 V c 1 t (ix2 p k) = V c main_arg0 (ix2 i0 k)) := by
  obtain ⟨e0, e1, e2, e3, -⟩ := block_indices t
  constructor
  · show V c main_v22 (((cfg0.win 0).blk t).view.emb (ix2 p k)) = V c main_v22 (ix2 i0 k)
    refine congrArg _ (funext fun a => Fin.ext ?_)
    match a with
    | ⟨0, _⟩ => show win0_0.index t (0 : Fin 2) * 10000 + 1 * p.val = i0.val; omega
    | ⟨1, _⟩ => show win0_0.index t (1 : Fin 2) * 3 + 1 * k.val = k.val; omega
  · show V c main_arg0 (((cfg0.win 1).blk t).view.emb (ix2 p k)) = V c main_arg0 (ix2 i0 k)
    refine congrArg _ (funext fun a => Fin.ext ?_)
    match a with
    | ⟨0, _⟩ => show win0_1.index t (0 : Fin 2) * 10000 + 1 * p.val = i0.val; omega
    | ⟨1, _⟩ => show win0_1.index t (1 : Fin 2) * 3 + 1 * k.val = k.val; omega

/-- The weights and the bias row are staged whole: their block at any point is the array. -/
theorem read_whole (c : Dev nD) (t : Fin cfg0.N) (k : Fin 3) (q : Fin 64) :
    (iblk0 V c 2 t (ix2 k q) = V c main_arg2 (ix2 k q)) ∧ (iblk0 V c 4 t (ix2 k q) = V c main_arg4 (ix2 k q))
    ∧ (iblk0 V c 3 t (ix2 (0 : Fin 1) q) = V c main_v23 (ix2 (0 : Fin 1) q)) := by
  obtain ⟨-, -, -, -, e4, e5, e6, e7, e8, e9, -⟩ := block_indices t
  refine ⟨?_, ?_, ?_⟩
  · show V c main_arg2 (((cfg0.win 2).blk t).view.emb (ix2 k q)) = V c main_arg2 (ix2 k q)
    refine congrArg _ (funext fun a => Fin.ext ?_)
    match a with
    | ⟨0, _⟩ => show win0_2.index t (0 : Fin 2) * 3 + 1 * k.val = k.val; omega
    | ⟨1, _⟩ => show win0_2.index t (1 : Fin 2) * 64 + 1 * q.val = q.val; omega
  · show V c main_arg4 (((cfg0.win 4).blk t).view.emb (ix2 k q)) = V c main_arg4 (ix2 k q)
    refine congrArg _ (funext fun a => Fin.ext ?_)
    match a with
    | ⟨0, _⟩ => show win0_4.index t (0 : Fin 2) * 3 + 1 * k.val = k.val; omega
    | ⟨1, _⟩ => show win0_4.index t (1 : Fin 2) * 64 + 1 * q.val = q.val; omega
  · show V c main_v23 (((cfg0.win 3).blk t).view.emb (ix2 (0 : Fin 1) q)) = V c main_v23 (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega

/-- What point `t` writes back is its block of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S10000x3) zero_offsets, View.ld_unit_zero (S := S3x64) zero_offsets,
    View.ld_unit_zero (S := S1x64) zero_offsets]
  funext j
  obtain ⟨p, q, rfl⟩ : ∃ (p : Fin 10000) (q : Fin 64), j = ix2 p q := ⟨j 0, j 1, eq_ix2 j⟩
  obtain ⟨-, -, -, -, -, -, -, -, -, -, e10, e11⟩ := block_indices t
  have hrow : win0_5.index t (0 : Fin 2) * 10000 + p.val < 100000 := by have := p.isLt; omega
  have hemb : ((cfg0.win 5).blk t).view.emb (ix2 p q) = ix2 (⟨win0_5.index t (0 : Fin 2) * 10000 + p.val, hrow⟩ : Fin 100000) q :=
    funext fun a => Fin.ext (by
      match a with
      | ⟨0, _⟩ => show win0_5.index t (0 : Fin 2) * 10000 + 1 * p.val = win0_5.index t (0 : Fin 2) * 10000 + p.val; omega
      | ⟨1, _⟩ => show win0_5.index t (1 : Fin 2) * 64 + 1 * q.val = q.val; omega)
  show k0_pay1 (F := Ideal) (iblk0 V c 0 t) (iblk0 V c 1 t) (iblk0 V c 2 t) (iblk0 V c 4 t) (iblk0 V c 3 t) (ix2 p q)
    = result V c (((cfg0.win 5).blk t).view.emb (ix2 p q))
  rw [hemb]
  refine (stored_entry (iblk0 V c 0 t) (iblk0 V c 1 t) (iblk0 V c 2 t) (iblk0 V c 4 t) (iblk0 V c 3 t) p q).trans ?_
  have hr := fun k => read_rows V c t 0 p k ⟨win0_5.index t (0 : Fin 2) * 10000 + p.val, hrow⟩ rfl
  have hw := fun k => read_whole V c t k q
  simp only [fun k => (hr k).1, fun k => (hr k).2, fun k => (hw k).1, fun k => (hw k).2.1, (hw 0).2.2]
  unfold result
  rw [relu_apply]
  refine congrArg (max · 0) ?_
  exact combine_bias_last (n := 100000) (d := 3) (e := 64) (V c main_v22) (V c main_arg0) (V c main_arg2) (V c main_arg4)
    (fun j => V c main_v23 (ix2 (0 : Fin 1) (j 0))) ⟨win0_5.index t (0 : Fin 2) * 10000 + p.val, hrow⟩ q

/-- An index of the result array lies in point `t`'s block iff each coordinate is in the block's range. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- The ten row blocks tile the result array: row `r` is in block `r / 10000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := block_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the region is `result` of the arrays the region finds. -/
theorem final (c : Dev nD) : (dat0 V c).arrAt 5 cfg0.N = result V c :=
  (dat0 V c).arrAt_eq_of_cover 5 (result V c) (fun t _ => flushed_eq V c t) (covered)

/-- `result` with the five arrays named: the bias row is given through its one row. -/
theorem result_congr (c : Dev nD) {mean x : (⟨2, ![100000, 3]⟩ : Shape).Idx → EReal} {wl wr : (⟨2, ![3, 64]⟩ : Shape).Idx → EReal}
    {b : (⟨1, ![64]⟩ : Shape).Idx → EReal}
    (h0 : V c main_v22 = mean) (h1 : V c main_arg0 = x) (h2 : V c main_arg2 = wl) (h4 : V c main_arg4 = wr)
    (hb : ∀ q : Fin 64, V c main_v23 (ix2 (0 : Fin 1) q) = b (ix1 q)) :
    result V c = relu (combine (n := 100000) (d := 3) (e := 64) mean x wl wr b) := by
  subst h0 h1 h2 h4
  have hbias : (fun j : (⟨1, ![64]⟩ : Shape).Idx => V c main_v23 (ix2 (0 : Fin 1) (j 0))) = b :=
    funext fun j => (hb (j 0)).trans (congrArg b (eq_ix1 j).symm)
  unfold result
  rw [hbias]

end Cert.KernelIdeal.Layer0

end
-- ==== Proof.Layer1.lean ====
import proofs.«134776_j30013231464923_1_alg».proof.Proof.Gen.KernelIdeal.Frame
import proofs.«134776_j30013231464923_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

/-!
# Layer 2's dense step, as the kernel computes it

The region runs ten grid points; point `t` stages rows `10000·t … 10000·t + 9999` of the neighbourhood means and of the
node features, the two weight matrices and the bias row whole, and writes back the same rows of the result.  At the
exact instance one entry `(p, q)` of a point's result block is

  max((∑ₖ mean[p, k] · Wl[k, q] + ∑ₖ x[p, k] · Wr[k, q]) + b[0, q], 0)

(the roundings to bf16 are the identity there, and a matrix product into a zero accumulator is the plain sum).  Row `p`
of block `t` is row `10000·t + p` of the arrays, the ten blocks tile the result array, and so the array ends at
`relu (combine …)` of the arrays the region finds — with the bias added after both products instead of between them,
which is the same extended real.
-/

set_option maxRecDepth 16384

noncomputable section

open scoped BigOperators

namespace Cert.KernelIdeal.Layer1

open Cert.KernelIdeal Cert.KernelIdeal.Gen Cert.SageLayer
open Idealize.ShloMosaic Idealize.ShloMosaic.TcCoe Idealize.ShloMosaic.ValueIdx Idealize.SL.Sem
open Idealize.ShloMosaic.Pipeline (Dat)

/-! ## The matrix product at an entry -/

theorem lhs_row (i : S10000x64.Idx) (z : dot_S10000x64_S64x64_S10000x64_1_0_0_1_n_n.contr.Idx) : (dot_S10000x64_S64x64_S10000x64_1_0_0_1_n_n.lhsIdx i z 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (i : S10000x64.Idx) (z : dot_S10000x64_S64x64_S10000x64_1_0_0_1_n_n.contr.Idx) : (dot_S10000x64_S64x64_S10000x64_1_0_0_1_n_n.lhsIdx i z 1).val = (z ⟨0, by decide⟩).val :=
  dot_S10000x64_S64x64_S10000x64_1_0_0_1_n_n.lhsIdx_val_of_single rfl i z
theorem rhs_row (i : S10000x64.Idx) (z : dot_S10000x64_S64x64_S10000x64_1_0_0_1_n_n.contr.Idx) : (dot_S10000x64_S64x64_S10000x64_1_0_0_1_n_n.rhsIdx i z 0).val = (z ⟨0, by decide⟩).val :=
  dot_S10000x64_S64x64_S10000x64_1_0_0_1_n_n.rhsIdx_val_of_single rfl i z
theorem rhs_col (i : S10000x64.Idx) (z : dot_S10000x64_S64x64_S10000x64_1_0_0_1_n_n.contr.Idx) : (dot_S10000x64_S64x64_S10000x64_1_0_0_1_n_n.rhsIdx i z 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product with a weight matrix, accumulated from zero, at the entry `(p, q)`: the sum over the 64 shared
    coordinates of row `p` times column `q`. -/
theorem matmul_entry (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's stored value at an entry -/

/-- The value the body stores, at the entry `(p, q)` of its block, from the five staged blocks. -/
theorem stored_entry (x0 x1 : Vec Ideal S10000x64 .f32) (x2 x4 : Vec Ideal S64x64 .f32) (x3 : Vec Ideal S1x64 .f32)
    (p : Fin 10000) (q : Fin 64) :
    k1_pay1 (F := Ideal) x0 x1 x2 x4 x3 (ix2 p q)
      = max ((∑ k : Fin 64, x0 (ix2 p k) * x2 (ix2 k q) + ∑ k : Fin 64, x1 (ix2 p k) * x4 (ix2 k q)) + x3 (ix2 (0 : Fin 1) q)) 0 := by
  unfold k1_pay1
  simp only [shapeCast_self]
  show max (((matmul (F := Ideal) dot_S10000x64_S64x64_S10000x64_1_0_0_1_n_n none _ _ _ (ix2 p q) : EReal) + (matmul (F := Ideal) dot_S10000x64_S64x64_S10000x64_1_0_0_1_n_n none _ _ _ (ix2 p q) : EReal)) + broadcastTo S10000x64 x3 _ (ix2 p q))
      (Ideal.ofBits .f32 0x00000000#32) = _
  rw [matmul_entry, matmul_entry, broadcastTo_1b_ab_apply, Ideal.ofBits_zero_f32]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the result array holds after the region, as one function of the arrays the region finds. -/
def result (c : Dev nD) : S100000x64.Idx → EReal :=
  relu (combine (n := 100000) (d := 64) (e := 64) (V c main_v43) (V c main_v24) (V c main_arg5) (V c main_arg7) (fun j => V c main_v44 (ix2 (0 : Fin 1) (j 0))))

/-- The index maps over the grid: the two row-blocked inputs move with the output's row block, every other block
    index is zero, and the output's row block is below ten. -/
theorem block_indices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some point's. -/
theorem block_onto : ∀ b : Fin 10, ∃ t : Fin cfg1.N, win1_5.index t = ![b.val, 0] :=
  (by decide +kernel : ∀ b : Fin 10, ∃ t : Fin grid1.N, win1_5.index t = ![b.val, 0])

/-- A row-blocked input's block at point `t`, entry `(p, k)`: the array's row `i0`, which is row `p` of the output's
    block. -/
theorem read_rows (c : Dev nD) (t : Fin cfg1.N) (w : Fin 2) (p : Fin 10000) (k : Fin 64) (i0 : Fin 100000)
    (hi : i0.val = win1_5.index t (0 : Fin 2) * 10000 + p.val) :
    (iblk1 V c 0 t (ix2 p k) = V c main_v43 (ix2 i0 k)) ∧ (iblk1 V c 1 t (ix2 p k) = V c main_v24 (ix2 i0 k)) := by
  obtain ⟨e0, e1, e2, e3, -⟩ := block_indices t
  constructor
  · show V c main_v43 (((cfg1.win 0).blk t).view.emb (ix2 p k)) = V c main_v43 (ix2 i0 k)
    refine congrArg _ (funext fun a => Fin.ext ?_)
    match a with
    | ⟨0, _⟩ => show win1_0.index t (0 : Fin 2) * 10000 + 1 * p.val = i0.val; omega
    | ⟨1, _⟩ => show win1_0.index t (1 : Fin 2) * 64 + 1 * k.val = k.val; omega
  · show V c main_v24 (((cfg1.win 1).blk t).view.emb (ix2 p k)) = V c main_v24 (ix2 i0 k)
    refine congrArg _ (funext fun a => Fin.ext ?_)
    match a with
    | ⟨0, _⟩ => show win1_1.index t (0 : Fin 2) * 10000 + 1 * p.val = i0.val; omega
    | ⟨1, _⟩ => show win1_1.index t (1 : Fin 2) * 64 + 1 * k.val = k.val; omega

/-- The weights and the bias row are staged whole: their block at any point is the array. -/
theorem read_whole (c : Dev nD) (t : Fin cfg1.N) (k : Fin 64) (q : Fin 64) :
    (iblk1 V c 2 t (ix2 k q) = V c main_arg5 (ix2 k q)) ∧ (iblk1 V c 4 t (ix2 k q) = V c main_arg7 (ix2 k q))
    ∧ (iblk1 V c 3 t (ix2 (0 : Fin 1) q) = V c main_v44 (ix2 (0 : Fin 1) q)) := by
  obtain ⟨-, -, -, -, e4, e5, e6, e7, e8, e9, -⟩ := block_indices t
  refine ⟨?_, ?_, ?_⟩
  · show V c main_arg5 (((cfg1.win 2).blk t).view.emb (ix2 k q)) = V c main_arg5 (ix2 k q)
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · show V c main_arg7 (((cfg1.win 4).blk t).view.emb (ix2 k q)) = V c main_arg7 (ix2 k q)
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  · show V c main_v44 (((cfg1.win 3).blk t).view.emb (ix2 (0 : Fin 1) q)) = V c main_v44 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- What point `t` writes back is its block of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  funext j
  obtain ⟨p, q, rfl⟩ : ∃ (p : Fin 10000) (q : Fin 64), j = ix2 p q := ⟨j 0, j 1, eq_ix2 j⟩
  obtain ⟨-, -, -, -, -, -, -, -, -, -, e10, e11⟩ := block_indices t
  have hrow : win1_5.index t (0 : Fin 2) * 10000 + p.val < 100000 := by have := p.isLt; omega
  have hemb : ((cfg1.win 5).blk t).view.emb (ix2 p q) = ix2 (⟨win1_5.index t (0 : Fin 2) * 10000 + p.val, hrow⟩ : Fin 100000) q :=
    funext fun a => Fin.ext (by
      match a with
      | ⟨0, _⟩ => show win1_5.index t (0 : Fin 2) * 10000 + 1 * p.val = win1_5.index t (0 : Fin 2) * 10000 + p.val; omega
      | ⟨1, _⟩ => show win1_5.index t (1 : Fin 2) * 64 + 1 * q.val = q.val; omega)
  show k1_pay1 (F := Ideal) (iblk1 V c 0 t) (iblk1 V c 1 t) (iblk1 V c 2 t) (iblk1 V c 4 t) (iblk1 V c 3 t) (ix2 p q)
    = result V c (((cfg1.win 5).blk t).view.emb (ix2 p q))
  rw [hemb]
  refine (stored_entry (iblk1 V c 0 t) (iblk1 V c 1 t) (iblk1 V c 2 t) (iblk1 V c 4 t) (iblk1 V c 3 t) p q).trans ?_
  have hr := fun k => read_rows V c t 0 p k ⟨win1_5.index t (0 : Fin 2) * 10000 + p.val, hrow⟩ rfl
  have hw := fun k => read_whole V c t k q
  simp only [fun k => (hr k).1, fun k => (hr k).2, fun k => (hw k).1, fun k => (hw k).2.1, (hw 0).2.2]
  unfold result
  rw [relu_apply]
  refine congrArg (max · 0) ?_
  exact combine_bias_last (n := 100000) (d := 64) (e := 64) (V c main_v43) (V c main_v24) (V c main_arg5) (V c main_arg7)
    (fun j => V c main_v44 (ix2 (0 : Fin 1) (j 0))) ⟨win1_5.index t (0 : Fin 2) * 10000 + p.val, hrow⟩ q

/-- An index of the result array lies in point `t`'s block iff each coordinate is in the block's range. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v45).slice (win1_5.rect t)).set ↔ _
  rw [View.set_slice_whole, Rect.mem_set_unit]
  exact Iff.rfl

/-- The ten row blocks tile the result array: row `r` is in block `r / 10000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := block_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The result array after the region is `result` of the arrays the region finds. -/
theorem final (c : Dev nD) : (dat1 V c).arrAt 5 cfg1.N = result V c :=
  (dat1 V c).arrAt_eq_of_cover 5 (result V c) (fun t _ => flushed_eq V c t) (covered)

/-- `result` with the five arrays named: the bias row is given through its one row. -/
theorem result_congr (c : Dev nD) {mean x : (⟨2, ![100000, 64]⟩ : Shape).Idx → EReal} {wl wr : (⟨2, ![64, 64]⟩ : Shape).Idx → EReal}
    {b : (⟨1, ![64]⟩ : Shape).Idx → EReal}
    (h0 : V c main_v43 = mean) (h1 : V c main_v24 = x) (h2 : V c main_arg5 = wl) (h4 : V c main_arg7 = wr)
    (hb : ∀ q : Fin 64, V c main_v44 (ix2 (0 : Fin 1) q) = b (ix1 q)) :
    result V c = relu (combine (n := 100000) (d := 64) (e := 64) mean x wl wr b) := by
  subst h0 h1 h2 h4
  have hbias : (fun j : (⟨1, ![64]⟩ : Shape).Idx => V c main_v44 (ix2 (0 : Fin 1) (j 0))) = b :=
    funext fun j => (hb (j 0)).trans (congrArg b (eq_ix1 j).symm)
  unfold result
  rw [hbias]

end Cert.KernelIdeal.Layer1

end
-- ==== Proof.Layer2.lean ====
import proofs.«134776_j30013231464923_1_alg».proof.Proof.Gen.KernelIdeal.Frame
import proofs.«134776_j30013231464923_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

/-!
# Layer 3's dense step, as the kernel computes it

The region runs ten grid points; point `t` stages rows `10000·t … 10000·t + 9999` of the neighbourhood means and of the
node features, the two weight matrices and the bias row whole, and writes back the same rows of the result.  At the
exact instance one entry `(p, q)` of a point's result block is

  (∑ₖ mean[p, k] · Wl[k, q] + ∑ₖ x[p, k] · Wr[k, q]) + b[0, q]

(the roundings to bf16 are the identity there, and a matrix product into a zero accumulator is the plain sum).  Row `p`
of block `t` is row `10000·t + p` of the arrays, the ten blocks tile the result array, and so the array ends at
`combine …` of the arrays the region finds — with the bias added after both products instead of between them,
which is the same extended real.
-/

set_option maxRecDepth 16384

noncomputable section

open scoped BigOperators

namespace Cert.KernelIdeal.Layer2

open Cert.KernelIdeal Cert.KernelIdeal.Gen Cert.SageLayer
open Idealize.ShloMosaic Idealize.ShloMosaic.TcCoe Idealize.ShloMosaic.ValueIdx Idealize.SL.Sem
open Idealize.ShloMosaic.Pipeline (Dat)

/-! ## The matrix product at an entry -/

theorem lhs_row (i : S10000x68.Idx) (z : dot_S10000x64_S64x68_S10000x68_1_0_0_1_n_n.contr.Idx) : (dot_S10000x64_S64x68_S10000x68_1_0_0_1_n_n.lhsIdx i z 0).val = (i 0).val := by
  unfold DotDims.lhsIdx
  rw [dif_neg (show ¬(0 : Fin S10000x64.rank) ∈ dot_S10000x64_S64x68_S10000x68_1_0_0_1_n_n.lhsBatch by decide), dif_pos (show (0 : Fin S10000x64.rank) ∈ dot_S10000x64_S64x68_S10000x68_1_0_0_1_n_n.lhsNonContracting by decide)]
  rfl
theorem lhs_col (i : S10000x68.Idx) (z : dot_S10000x64_S64x68_S10000x68_1_0_0_1_n_n.contr.Idx) : (dot_S10000x64_S64x68_S10000x68_1_0_0_1_n_n.lhsIdx i z 1).val = (z ⟨0, by decide⟩).val :=
  dot_S10000x64_S64x68_S10000x68_1_0_0_1_n_n.lhsIdx_val_of_single rfl i z
theorem rhs_row (i : S10000x68.Idx) (z : dot_S10000x64_S64x68_S10000x68_1_0_0_1_n_n.contr.Idx) : (dot_S10000x64_S64x68_S10000x68_1_0_0_1_n_n.rhsIdx i z 0).val = (z ⟨0, by decide⟩).val :=
  dot_S10000x64_S64x68_S10000x68_1_0_0_1_n_n.rhsIdx_val_of_single rfl i z
theorem rhs_col (i : S10000x68.Idx) (z : dot_S10000x64_S64x68_S10000x68_1_0_0_1_n_n.contr.Idx) : (dot_S10000x64_S64x68_S10000x68_1_0_0_1_n_n.rhsIdx i z 1).val = (i 1).val := by
  unfold DotDims.rhsIdx
  rw [dif_neg (show ¬(1 : Fin S64x68.rank) ∈ dot_S10000x64_S64x68_S10000x68_1_0_0_1_n_n.rhsBatch by decide), dif_pos (show (1 : Fin S64x68.rank) ∈ dot_S10000x64_S64x68_S10000x68_1_0_0_1_n_n.rhsNonContracting by decide)]
  rfl

/-- A block's product with a weight matrix, accumulated from zero, at the entry `(p, q)`: the sum over the 64 shared
    coordinates of row `p` times column `q`. -/
theorem matmul_entry (l : FVec Ideal S10000x64 .bf16) (r : FVec Ideal S64x68 .bf16) (p : Fin 10000) (q : Fin 68) :
    matmul dot_S10000x64_S64x68_S10000x68_1_0_0_1_n_n none l r (constant (F := Ideal) S10000x68 .f32 0x00000000#32) (ix2 p q)
      = ∑ k : Fin 64, l (ix2 p k) * r (ix2 k q) := by
  simp only [matmul]
  rw [Ideal.matmul_constant_zero_apply, ← Equiv.sum_comp (contrEquiv1 dot_S10000x64_S64x68_S10000x68_1_0_0_1_n_n 64 rfl rfl).symm]
  refine Finset.sum_congr rfl fun k _ => ?_
  have hk := contrEquiv1_symm_val dot_S10000x64_S64x68_S10000x68_1_0_0_1_n_n 64 rfl rfl k
  have el : dot_S10000x64_S64x68_S10000x68_1_0_0_1_n_n.lhsIdx (ix2 p q) ((contrEquiv1 dot_S10000x64_S64x68_S10000x68_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x68_S10000x68_1_0_0_1_n_n.rhsIdx (ix2 p q) ((contrEquiv1 dot_S10000x64_S64x68_S10000x68_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's stored value at an entry -/

/-- The value the body stores, at the entry `(p, q)` of its block, from the five staged blocks. -/
theorem stored_entry (x0 x1 : Vec Ideal S10000x64 .f32) (x2 x4 : Vec Ideal S64x68 .f32) (x3 : Vec Ideal S1x68 .f32)
    (p : Fin 10000) (q : Fin 68) :
    k2_pay1 (F := Ideal) x0 x1 x2 x4 x3 (ix2 p q)
      = (∑ k : Fin 64, x0 (ix2 p k) * x2 (ix2 k q) + ∑ k : Fin 64, x1 (ix2 p k) * x4 (ix2 k q)) + x3 (ix2 (0 : Fin 1) q) := by
  unfold k2_pay1
  simp only [shapeCast_self]
  show ((matmul (F := Ideal) dot_S10000x64_S64x68_S10000x68_1_0_0_1_n_n none _ _ _ (ix2 p q) : EReal) + (matmul (F := Ideal) dot_S10000x64_S64x68_S10000x68_1_0_0_1_n_n none _ _ _ (ix2 p q) : EReal)) + broadcastTo S10000x68 x3 _ (ix2 p q) = _
  rw [matmul_entry, matmul_entry, broadcastTo_1b_ab_apply]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the result array holds after the region, as one function of the arrays the region finds. -/
def result (c : Dev nD) : S100000x68.Idx → EReal :=
  combine (n := 100000) (d := 64) (e := 68) (V c main_v64) (V c main_v45) (V c main_arg8) (V c main_arg10) (fun j => V c main_v65 (ix2 (0 : Fin 1) (j 0)))

/-- The index maps over the grid: the two row-blocked inputs move with the output's row block, every other block
    index is zero, and the output's row block is below ten. -/
theorem block_indices : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block is some point's. -/
theorem block_onto : ∀ b : Fin 10, ∃ t : Fin cfg2.N, win2_5.index t = ![b.val, 0] :=
  (by decide +kernel : ∀ b : Fin 10, ∃ t : Fin grid2.N, win2_5.index t = ![b.val, 0])

/-- A row-blocked input's block at point `t`, entry `(p, k)`: the array's row `i0`, which is row `p` of the output's
    block. -/
theorem read_rows (c : Dev nD) (t : Fin cfg2.N) (w : Fin 2) (p : Fin 10000) (k : Fin 64) (i0 : Fin 100000)
    (hi : i0.val = win2_5.index t (0 : Fin 2) * 10000 + p.val) :
    (iblk2 V c 0 t (ix2 p k) = V c main_v64 (ix2 i0 k)) ∧ (iblk2 V c 1 t (ix2 p k) = V c main_v45 (ix2 i0 k)) := by
  obtain ⟨e0, e1, e2, e3, -⟩ := block_indices t
  constructor
  · show V c main_v64 (((cfg2.win 0).blk t).view.emb (ix2 p k)) = V c main_v64 (ix2 i0 k)
    refine congrArg _ (funext fun a => Fin.ext ?_)
    match a with
    | ⟨0, _⟩ => show win2_0.index t (0 : Fin 2) * 10000 + 1 * p.val = i0.val; omega
    | ⟨1, _⟩ => show win2_0.index t (1 : Fin 2) * 64 + 1 * k.val = k.val; omega
  · show V c main_v45 (((cfg2.win 1).blk t).view.emb (ix2 p k)) = V c main_v45 (ix2 i0 k)
    refine congrArg _ (funext fun a => Fin.ext ?_)
    match a with
    | ⟨0, _⟩ => show win2_1.index t (0 : Fin 2) * 10000 + 1 * p.val = i0.val; omega
    | ⟨1, _⟩ => show win2_1.index t (1 : Fin 2) * 64 + 1 * k.val = k.val; omega

/-- The weights and the bias row are staged whole: their block at any point is the array. -/
theorem read_whole (c : Dev nD) (t : Fin cfg2.N) (k : Fin 64) (q : Fin 68) :
    (iblk2 V c 2 t (ix2 k q) = V c main_arg8 (ix2 k q)) ∧ (iblk2 V c 4 t (ix2 k q) = V c main_arg10 (ix2 k q))
    ∧ (iblk2 V c 3 t (ix2 (0 : Fin 1) q) = V c main_v65 (ix2 (0 : Fin 1) q)) := by
  obtain ⟨-, -, -, -, e4, e5, e6, e7, e8, e9, -⟩ := block_indices t
  refine ⟨?_, ?_, ?_⟩
  · show V c main_arg8 (((cfg2.win 2).blk t).view.emb (ix2 k q)) = V c main_arg8 (ix2 k q)
    refine congrArg _ (funext fun a => Fin.ext ?_)
    match a with
    | ⟨0, _⟩ => show win2_2.index t (0 : Fin 2) * 64 + 1 * k.val = k.val; omega
    | ⟨1, _⟩ => show win2_2.index t (1 : Fin 2) * 68 + 1 * q.val = q.val; omega
  · show V c main_arg10 (((cfg2.win 4).blk t).view.emb (ix2 k q)) = V c main_arg10 (ix2 k q)
    refine congrArg _ (funext fun a => Fin.ext ?_)
    match a with
    | ⟨0, _⟩ => show win2_4.index t (0 : Fin 2) * 64 + 1 * k.val = k.val; omega
    | ⟨1, _⟩ => show win2_4.index t (1 : Fin 2) * 68 + 1 * q.val = q.val; omega
  · show V c main_v65 (((cfg2.win 3).blk t).view.emb (ix2 (0 : Fin 1) q)) = V c main_v65 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 68 + 1 * q.val = q.val; omega

/-- What point `t` writes back is its block of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S64x68) zero_offsets,
    View.ld_unit_zero (S := S1x68) zero_offsets]
  funext j
  obtain ⟨p, q, rfl⟩ : ∃ (p : Fin 10000) (q : Fin 68), j = ix2 p q := ⟨j 0, j 1, eq_ix2 j⟩
  obtain ⟨-, -, -, -, -, -, -, -, -, -, e10, e11⟩ := block_indices t
  have hrow : win2_5.index t (0 : Fin 2) * 10000 + p.val < 100000 := by have := p.isLt; omega
  have hemb : ((cfg2.win 5).blk t).view.emb (ix2 p q) = ix2 (⟨win2_5.index t (0 : Fin 2) * 10000 + p.val, hrow⟩ : Fin 100000) q :=
    funext fun a => Fin.ext (by
      match a with
      | ⟨0, _⟩ => show win2_5.index t (0 : Fin 2) * 10000 + 1 * p.val = win2_5.index t (0 : Fin 2) * 10000 + p.val; omega
      | ⟨1, _⟩ => show win2_5.index t (1 : Fin 2) * 68 + 1 * q.val = q.val; omega)
  show k2_pay1 (F := Ideal) (iblk2 V c 0 t) (iblk2 V c 1 t) (iblk2 V c 2 t) (iblk2 V c 4 t) (iblk2 V c 3 t) (ix2 p q)
    = result V c (((cfg2.win 5).blk t).view.emb (ix2 p q))
  rw [hemb]
  refine (stored_entry (iblk2 V c 0 t) (iblk2 V c 1 t) (iblk2 V c 2 t) (iblk2 V c 4 t) (iblk2 V c 3 t) p q).trans ?_
  have hr := fun k => read_rows V c t 0 p k ⟨win2_5.index t (0 : Fin 2) * 10000 + p.val, hrow⟩ rfl
  have hw := fun k => read_whole V c t k q
  simp only [fun k => (hr k).1, fun k => (hr k).2, fun k => (hw k).1, fun k => (hw k).2.1, (hw 0).2.2]
  unfold result
  exact combine_bias_last (n := 100000) (d := 64) (e := 68) (V c main_v64) (V c main_v45) (V c main_arg8) (V c main_arg10)
    (fun j => V c main_v65 (ix2 (0 : Fin 1) (j 0))) ⟨win2_5.index t (0 : Fin 2) * 10000 + p.val, hrow⟩ q

/-- An index of the result array lies in point `t`'s block iff each coordinate is in the block's range. -/
theorem mem_block (t : Fin cfg2.N) (i : S100000x68.Idx) :
    i ∈ ((cfg2.win 5).blk t).view.set ↔ ∀ a : Fin 2, win2_5.index t a * S10000x68.size a ≤ (i a).val ∧ (i a).val < win2_5.index t a * S10000x68.size a + S10000x68.size a := by
  show i ∈ ((View.whole main_v66).slice (win2_5.rect t)).set ↔ _
  rw [View.set_slice_whole, Rect.mem_set_unit]
  exact Iff.rfl

/-- The ten row blocks tile the result array: row `r` is in block `r / 10000`. -/
theorem covered (i : S100000x68.Idx) :
    ∃ t : Fin cfg2.N, (cfg2.win 5).flush t = true ∧ i ∈ ((cfg2.win 5).blk t).view.set := by
  have hi0 : (i 0).val < 100000 := (i 0).isLt
  have hi1 : (i 1).val < 68 := (i 1).isLt
  obtain ⟨t, ht⟩ := block_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 68 ≤ (i 1).val ∧ (i 1).val < win2_5.index t (1 : Fin 2) * 68 + 68; omega

/-- The result array after the region is `result` of the arrays the region finds. -/
theorem final (c : Dev nD) : (dat2 V c).arrAt 5 cfg2.N = result V c :=
  (dat2 V c).arrAt_eq_of_cover 5 (result V c) (fun t _ => flushed_eq V c t) (covered)

/-- `result` with the five arrays named: the bias row is given through its one row. -/
theorem result_congr (c : Dev nD) {mean x : (⟨2, ![100000, 64]⟩ : Shape).Idx → EReal} {wl wr : (⟨2, ![64, 68]⟩ : Shape).Idx → EReal}
    {b : (⟨1, ![68]⟩ : Shape).Idx → EReal}
    (h0 : V c main_v64 = mean) (h1 : V c main_v45 = x) (h2 : V c main_arg8 = wl) (h4 : V c main_arg10 = wr)
    (hb : ∀ q : Fin 68, V c main_v65 (ix2 (0 : Fin 1) q) = b (ix1 q)) :
    result V c = combine (n := 100000) (d := 64) (e := 68) mean x wl wr b := by
  subst h0 h1 h2 h4
  have hbias : (fun j : (⟨1, ![68]⟩ : Shape).Idx => V c main_v65 (ix2 (0 : Fin 1) (j 0))) = b :=
    funext fun j => (hb (j 0)).trans (congrArg b (eq_ix1 j).symm)
  unfold result
  rw [hbias]

end Cert.KernelIdeal.Layer2

end
-- ==== Proof.RefLayers.lean ====
import proofs.«134776_j30013231464923_1_alg».proof.Proof.Gen.ReferenceIdeal.Read
import proofs.«134776_j30013231464923_1_alg».proof.Proof.LibSageLayer

/-!
# The reference, layer by layer

The reference applies three graph-convolution layers.  Each forms the neighbourhood means of its input rows (a
gather along the edges' sources, a scatter-add into the edges' targets, a division by the clamped in-degree) and then
the dense step `(mean · Wl + b) + x · Wr`, followed by a maximum with zero in the first two layers.  Read at an
entry, each layer's result is `combine` (and `relu`) of its neighbourhood means, its input rows, the two weights and
the bias; the neighbourhood means of the second and third layers are written as one function (`mean2`, `mean3`) of
the previous layer's result and the edge list, never opened.
-/

set_option maxRecDepth 16384

noncomputable section

open scoped BigOperators

namespace Cert.ReferenceIdeal.Layers

open Cert.ReferenceIdeal Cert.ReferenceIdeal.Gen Cert.ReferenceIdeal.Read Cert.SageLayer
open Idealize.ShloMosaic Idealize.ShloMosaic.TcCoe Idealize.ShloMosaic.ValueIdx Idealize.SL.Sem Idealize.ShloMosaic.StableHlo

/-- The second layer's neighbourhood means, as a function of the first layer's result `h` and the edge list `e`. -/
def mean2 {F : FTy → Type} [FloatOps F] (h : (⟨S100000x64, .f32⟩ : BufTy).Contents (Elt F)) (e : (⟨S2x1600000, .i32⟩ : BufTy).Contents (Elt F)) :
    (⟨S100000x64, .f32⟩ : BufTy).Contents (Elt F) :=
  Host.divf (Host.scatterAdd scatter_S100000x64_S1600000x1_S1600000x64_1_0_0_1 (val_main_v37 (F := F)) (val_main_v38 (F := F) e)
    (Host.gather gather_S100000x64_S1600000x1_S1600000x64_1_0_n_n_0_1_164 h (val_main_v35 (F := F) e))) (val_main_v47 (F := F) e)

/-- The third layer's neighbourhood means, as a function of the second layer's result `h` and the edge list `e`. -/
def mean3 {F : FTy → Type} [FloatOps F] (h : (⟨S100000x64, .f32⟩ : BufTy).Contents (Elt F)) (e : (⟨S2x1600000, .i32⟩ : BufTy).Contents (Elt F)) :
    (⟨S100000x64, .f32⟩ : BufTy).Contents (Elt F) :=
  Host.divf (Host.scatterAdd scatter_S100000x64_S1600000x1_S1600000x64_1_0_0_1 (val_main_v63 (F := F)) (val_main_v64 (F := F) e)
    (Host.gather gather_S100000x64_S1600000x1_S1600000x64_1_0_n_n_0_1_164 h (val_main_v61 (F := F) e))) (val_main_v73 (F := F) e)

theorem mean2_eq (x0 : (⟨S100000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) :
    val_main_v48 (F := Ideal) x0 x1 x2 x3 x4 = mean2 (F := Ideal) (val_main_v29 (F := Ideal) x0 x1 x2 x3 x4) x1 := rfl

theorem mean3_eq (x0 : (⟨S100000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v74 (F := Ideal) x0 x1 x2 x3 x4 x5 x6 x7 = mean3 (F := Ideal) (val_main_v55 (F := Ideal) x0 x1 x2 x3 x4 x5 x6 x7) x1 := rfl

/-- The first layer's result: `relu` of the dense step of the input rows and their neighbourhood means. -/
theorem layer1 (x0 : (⟨S100000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) :
    val_main_v29 (F := Ideal) x0 x1 x2 x3 x4
      = relu (combine (n := 100000) (d := 3) (e := 64) (val_main_v22 (F := Ideal) x0 x1) x0 x2 x4 x3) := by
  funext i
  obtain ⟨p, q, rfl⟩ : ∃ (p : Fin 100000) (q : Fin 64), i = ix2 p q := ⟨i 0, i 1, eq_ix2 i⟩
  rw [relu_apply, combine_apply, val_main_v29_apply, val_main_v28_apply, val_main_v26_apply, val_main_v23_apply, val_main_v27_apply, val_main_v25_apply, val_main_v24_apply, val_main_call0_v0_apply, val_main_call0_cst_apply]
  have e1 : ∀ k, lidx_main_v23 (ix2 p q) k = ix2 p k := fun k => funext fun a => Fin.ext (by
    match a with
    | ⟨0, _⟩ => rfl
    | ⟨1, _⟩ => rfl)
  have e2 : ∀ k, ridx_main_v23 (ix2 p q) k = ix2 k q := fun k => funext fun a => Fin.ext (by
    match a with
    | ⟨0, _⟩ => rfl
    | ⟨1, _⟩ => rfl)
  have e3 : ∀ k, lidx_main_v27 (ix2 p q) k = ix2 p k := fun k => funext fun a => Fin.ext (by
    match a with
    | ⟨0, _⟩ => rfl
    | ⟨1, _⟩ => rfl)
  have e4 : ∀ k, ridx_main_v27 (ix2 p q) k = ix2 k q := fun k => funext fun a => Fin.ext (by
    match a with
    | ⟨0, _⟩ => rfl
    | ⟨1, _⟩ => rfl)
  have e5 : idx_main_v24 (idx_main_v25 (ix2 p q)) = ix1 q := funext fun a => Fin.ext (by
    match a with
    | ⟨0, _⟩ => rfl)
  simp only [e1, e2, e3, e4, e5]
  show max _ (Ideal.ofBits .f32 0x00000000#32) = _
  rw [Ideal.ofBits_zero_f32]
  rfl

/-- The second layer's result: `relu` of the dense step of the first layer's result and its neighbourhood means. -/
theorem layer2 (x0 : (⟨S100000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v55 (F := Ideal) x0 x1 x2 x3 x4 x5 x6 x7
      = relu (combine (n := 100000) (d := 64) (e := 64) (mean2 (F := Ideal) (val_main_v29 (F := Ideal) x0 x1 x2 x3 x4) x1) (val_main_v29 (F := Ideal) x0 x1 x2 x3 x4) x5 x7 x6) := by
  funext i
  obtain ⟨p, q, rfl⟩ : ∃ (p : Fin 100000) (q : Fin 64), i = ix2 p q := ⟨i 0, i 1, eq_ix2 i⟩
  rw [relu_apply, combine_apply, val_main_v55_apply, val_main_v54_apply, val_main_v52_apply, val_main_v49_apply, val_main_v53_apply, val_main_v51_apply, val_main_v50_apply, val_main_call1_v0_apply, val_main_call1_cst_apply, mean2_eq]
  have e1 : ∀ k, lidx_main_v49 (ix2 p q) k = ix2 p k := fun k => funext fun a => Fin.ext (by
    match a with
    | ⟨0, _⟩ => rfl
    | ⟨1, _⟩ => rfl)
  have e2 : ∀ k, ridx_main_v49 (ix2 p q) k = ix2 k q := fun k => funext fun a => Fin.ext (by
    match a with
    | ⟨0, _⟩ => rfl
    | ⟨1, _⟩ => rfl)
  have e3 : ∀ k, lidx_main_v53 (ix2 p q) k = ix2 p k := fun k => funext fun a => Fin.ext (by
    match a with
    | ⟨0, _⟩ => rfl
    | ⟨1, _⟩ => rfl)
  have e4 : ∀ k, ridx_main_v53 (ix2 p q) k = ix2 k q := fun k => funext fun a => Fin.ext (by
    match a with
    | ⟨0, _⟩ => rfl
    | ⟨1, _⟩ => rfl)
  have e5 : idx_main_v50 (idx_main_v51 (ix2 p q)) = ix1 q := funext fun a => Fin.ext (by
    match a with
    | ⟨0, _⟩ => rfl)
  simp only [e1, e2, e3, e4, e5]
  show max _ (Ideal.ofBits .f32 0x00000000#32) = _
  rw [Ideal.ofBits_zero_f32]
  rfl

/-- The third layer's result: the dense step of the second layer's result and its neighbourhood means, with no maximum. -/
theorem layer3 (x0 : (⟨S100000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x68, .f32⟩ : BufTy).Contents (Elt Ideal)) (x9 : (⟨S68, .f32⟩ : BufTy).Contents (Elt Ideal)) (x10 : (⟨S64x68, .f32⟩ : BufTy).Contents (Elt Ideal)) :
    val_main_v80 (F := Ideal) x0 x1 x2 x3 x4 x5 x6 x7 x8 x9 x10
      = combine (n := 100000) (d := 64) (e := 68) (mean3 (F := Ideal) (val_main_v55 (F := Ideal) x0 x1 x2 x3 x4 x5 x6 x7) x1) (val_main_v55 (F := Ideal) x0 x1 x2 x3 x4 x5 x6 x7) x8 x10 x9 := by
  funext i
  obtain ⟨p, q, rfl⟩ : ∃ (p : Fin 100000) (q : Fin 68), i = ix2 p q := ⟨i 0, i 1, eq_ix2 i⟩
  rw [combine_apply, val_main_v80_apply, val_main_v78_apply, val_main_v75_apply, val_main_v79_apply, val_main_v77_apply, val_main_v76_apply, mean3_eq]
  have e1 : ∀ k, lidx_main_v75 (ix2 p q) k = ix2 p k := fun k => funext fun a => Fin.ext (by
    match a with
    | ⟨0, _⟩ => rfl
    | ⟨1, _⟩ => rfl)
  have e2 : ∀ k, ridx_main_v75 (ix2 p q) k = ix2 k q := fun k => funext fun a => Fin.ext (by
    match a with
    | ⟨0, _⟩ => rfl
    | ⟨1, _⟩ => rfl)
  have e3 : ∀ k, lidx_main_v79 (ix2 p q) k = ix2 p k := fun k => funext fun a => Fin.ext (by
    match a with
    | ⟨0, _⟩ => rfl
    | ⟨1, _⟩ => rfl)
  have e4 : ∀ k, ridx_main_v79 (ix2 p q) k = ix2 k q := fun k => funext fun a => Fin.ext (by
    match a with
    | ⟨0, _⟩ => rfl
    | ⟨1, _⟩ => rfl)
  have e5 : idx_main_v76 (idx_main_v77 (ix2 p q)) = ix1 q := funext fun a => Fin.ext (by
    match a with
    | ⟨0, _⟩ => rfl)
  simp only [e1, e2, e3, e4, e5]
  rfl

end Cert.ReferenceIdeal.Layers

end
-- ==== Proof.HostStretches.lean ====
import proofs.«134776_j30013231464923_1_alg».proof.Proof.Gen.KernelIdeal.Frame
import proofs.«134776_j30013231464923_1_alg».proof.Proof.RefLayers
import Idealize.ShloMosaic.Lib.StableHlo.Run
import Idealize.ShloMosaic.Lib.ValueIdx
import Idealize.ShloMosaic.Lib.ValueLayout

/-!
# The kernel program's host operations between its regions

Before each region the program prepares, on the host, the neighbourhood means of the rows the region will combine
and the bias as a one-row matrix.  These are the reference's own operations on the same operands: the first
stretch's means are the reference's first-layer means of the node positions; the second and third stretches' means
are the reference's `mean2` and `mean3` of the previous region's result, once the edge list's source and target rows
(computed in the first stretch and kept since) are known to be the reference's.  Every stretch leaves the argument
buffers, the two edge rows and the previous region's result as it finds them.  Each statement is over an arbitrary
valuation `X` of the buffers at the stretch's start.
-/

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (X : Valuation τ sig (Elt Ideal))

/-! ## Before the first region -/

/-- The first layer's neighbourhood means are the reference's, of the same positions and edge list. -/
theorem s0_mean : after hostOps0 X (Proc.devRef .tc main_v22)
    = Cert.ReferenceIdeal.Read.val_main_v22 (F := Ideal) (X (Proc.devRef .tc main_arg0)) (X (Proc.devRef .tc main_arg1)) := by
  after_results_simp
  rfl

/-- The edge list's source row … -/
theorem s0_src : after hostOps0 X (Proc.devRef .tc main_v1) = Cert.ReferenceIdeal.Read.val_main_v1 (F := Ideal) (X (Proc.devRef .tc main_arg1)) := by
  after_results_simp
  rfl

/-- … and its target row. -/
theorem s0_dst : after hostOps0 X (Proc.devRef .tc main_v3) = Cert.ReferenceIdeal.Read.val_main_v3 (F := Ideal) (X (Proc.devRef .tc main_arg1)) := by
  after_results_simp
  rfl

/-- The first bias as a one-row matrix reads the bias vector. -/
theorem s0_bias (q : Fin 64) : after hostOps0 X (Proc.devRef .tc main_v23) (ix2 (0 : Fin 1) q) = X (Proc.devRef .tc main_arg3) (ix1 q) := by
  have h : after hostOps0 X (Proc.devRef .tc main_v23) = shapeCast S1x64 (X (Proc.devRef .tc main_arg3)) Gen.shapeCasts_S64_S1x64 := by
    after_results_simp
    rfl
  rw [h]
  exact shapeCast_a_1a_apply _ _ 0 q

theorem s0_keep_arg0 : after hostOps0 X (Proc.devRef .tc main_arg0) = X (Proc.devRef .tc main_arg0) := by
  after_results_simp

theorem s0_keep_arg1 : after hostOps0 X (Proc.devRef .tc main_arg1) = X (Proc.devRef .tc main_arg1) := by
  after_results_simp

theorem s0_keep_arg2 : after hostOps0 X (Proc.devRef .tc main_arg2) = X (Proc.devRef .tc main_arg2) := by
  after_results_simp

theorem s0_keep_arg3 : after hostOps0 X (Proc.devRef .tc main_arg3) = X (Proc.devRef .tc main_arg3) := by
  after_results_simp

theorem s0_keep_arg4 : after hostOps0 X (Proc.devRef .tc main_arg4) = X (Proc.devRef .tc main_arg4) := by
  after_results_simp

theorem s0_keep_arg5 : after hostOps0 X (Proc.devRef .tc main_arg5) = X (Proc.devRef .tc main_arg5) := by
  after_results_simp

theorem s0_keep_arg6 : after hostOps0 X (Proc.devRef .tc main_arg6) = X (Proc.devRef .tc main_arg6) := by
  after_results_simp

theorem s0_keep_arg7 : after hostOps0 X (Proc.devRef .tc main_arg7) = X (Proc.devRef .tc main_arg7) := by
  after_results_simp

theorem s0_keep_arg8 : after hostOps0 X (Proc.devRef .tc main_arg8) = X (Proc.devRef .tc main_arg8) := by
  after_results_simp

theorem s0_keep_arg9 : after hostOps0 X (Proc.devRef .tc main_arg9) = X (Proc.devRef .tc main_arg9) := by
  after_results_simp

theorem s0_keep_arg10 : after hostOps0 X (Proc.devRef .tc main_arg10) = X (Proc.devRef .tc main_arg10) := by
  after_results_simp

/-! ## Between the first and the second region -/

/-- The second layer's neighbourhood means are the reference's `mean2` of the first region's result. -/
theorem s1_mean (e : (⟨Cert.ReferenceIdeal.S2x1600000, .i32⟩ : BufTy).Contents (Elt Ideal))
    (h1 : X (Proc.devRef .tc main_v1) = Cert.ReferenceIdeal.Read.val_main_v1 (F := Ideal) e) (h3 : X (Proc.devRef .tc main_v3) = Cert.ReferenceIdeal.Read.val_main_v3 (F := Ideal) e) :
    after hostOps1 X (Proc.devRef .tc main_v43) = Cert.ReferenceIdeal.Layers.mean2 (F := Ideal) (X (Proc.devRef .tc main_v24)) e := by
  after_results_simp
  rw [h1, h3]
  rfl

/-- The second bias as a one-row matrix reads the bias vector. -/
theorem s1_bias (q : Fin 64) : after hostOps1 X (Proc.devRef .tc main_v44) (ix2 (0 : Fin 1) q) = X (Proc.devRef .tc main_arg6) (ix1 q) := by
  have h : after hostOps1 X (Proc.devRef .tc main_v44) = shapeCast S1x64 (X (Proc.devRef .tc main_arg6)) Gen.shapeCasts_S64_S1x64 := by
    after_results_simp
    rfl
  rw [h]
  exact shapeCast_a_1a_apply _ _ 0 q

theorem s1_keep_v24 : after hostOps1 X (Proc.devRef .tc main_v24) = X (Proc.devRef .tc main_v24) := by
  after_results_simp

theorem s1_keep_v1 : after hostOps1 X (Proc.devRef .tc main_v1) = X (Proc.devRef .tc main_v1) := by
  after_results_simp

theorem s1_keep_v3 : after hostOps1 X (Proc.devRef .tc main_v3) = X (Proc.devRef .tc main_v3) := by
  after_results_simp

theorem s1_keep_arg0 : after hostOps1 X (Proc.devRef .tc main_arg0) = X (Proc.devRef .tc main_arg0) := by
  after_results_simp

theorem s1_keep_arg1 : after hostOps1 X (Proc.devRef .tc main_arg1) = X (Proc.devRef .tc main_arg1) := by
  after_results_simp

theorem s1_keep_arg2 : after hostOps1 X (Proc.devRef .tc main_arg2) = X (Proc.devRef .tc main_arg2) := by
  after_results_simp

theorem s1_keep_arg3 : after hostOps1 X (Proc.devRef .tc main_arg3) = X (Proc.devRef .tc main_arg3) := by
  after_results_simp

theorem s1_keep_arg4 : after hostOps1 X (Proc.devRef .tc main_arg4) = X (Proc.devRef .tc main_arg4) := by
  after_results_simp

theorem s1_keep_arg5 : after hostOps1 X (Proc.devRef .tc main_arg5) = X (Proc.devRef .tc main_arg5) := by
  after_results_simp

theorem s1_keep_arg6 : after hostOps1 X (Proc.devRef .tc main_arg6) = X (Proc.devRef .tc main_arg6) := by
  after_results_simp

theorem s1_keep_arg7 : after hostOps1 X (Proc.devRef .tc main_arg7) = X (Proc.devRef .tc main_arg7) := by
  after_results_simp

theorem s1_keep_arg8 : after hostOps1 X (Proc.devRef .tc main_arg8) = X (Proc.devRef .tc main_arg8) := by
  after_results_simp

theorem s1_keep_arg9 : after hostOps1 X (Proc.devRef .tc main_arg9) = X (Proc.devRef .tc main_arg9) := by
  after_results_simp

theorem s1_keep_arg10 : after hostOps1 X (Proc.devRef .tc main_arg10) = X (Proc.devRef .tc main_arg10) := by
  after_results_simp

/-! ## Between the second and the third region -/

/-- The third layer's neighbourhood means are the reference's `mean3` of the second region's result. -/
theorem s2_mean (e : (⟨Cert.ReferenceIdeal.S2x1600000, .i32⟩ : BufTy).Contents (Elt Ideal))
    (h1 : X (Proc.devRef .tc main_v1) = Cert.ReferenceIdeal.Read.val_main_v1 (F := Ideal) e) (h3 : X (Proc.devRef .tc main_v3) = Cert.ReferenceIdeal.Read.val_main_v3 (F := Ideal) e) :
    after hostOps2 X (Proc.devRef .tc main_v64) = Cert.ReferenceIdeal.Layers.mean3 (F := Ideal) (X (Proc.devRef .tc main_v45)) e := by
  after_results_simp
  rw [h1, h3]
  rfl

/-- The third bias as a one-row matrix reads the bias vector. -/
theorem s2_bias (q : Fin 68) : after hostOps2 X (Proc.devRef .tc main_v65) (ix2 (0 : Fin 1) q) = X (Proc.devRef .tc main_arg9) (ix1 q) := by
  have h : after hostOps2 X (Proc.devRef .tc main_v65) = shapeCast S1x68 (X (Proc.devRef .tc main_arg9)) Gen.shapeCasts_S68_S1x68 := by
    after_results_simp
    rfl
  rw [h]
  exact shapeCast_a_1a_apply _ _ 0 q

theorem s2_keep_v45 : after hostOps2 X (Proc.devRef .tc main_v45) = X (Proc.devRef .tc main_v45) := by
  after_results_simp

theorem s2_keep_arg0 : after hostOps2 X (Proc.devRef .tc main_arg0) = X (Proc.devRef .tc main_arg0) := by
  after_results_simp

theorem s2_keep_arg1 : after hostOps2 X (Proc.devRef .tc main_arg1) = X (Proc.devRef .tc main_arg1) := by
  after_results_simp

theorem s2_keep_arg2 : after hostOps2 X (Proc.devRef .tc main_arg2) = X (Proc.devRef .tc main_arg2) := by
  after_results_simp

theorem s2_keep_arg3 : after hostOps2 X (Proc.devRef .tc main_arg3) = X (Proc.devRef .tc main_arg3) := by
  after_results_simp

theorem s2_keep_arg4 : after hostOps2 X (Proc.devRef .tc main_arg4) = X (Proc.devRef .tc main_arg4) := by
  after_results_simp

theorem s2_keep_arg5 : after hostOps2 X (Proc.devRef .tc main_arg5) = X (Proc.devRef .tc main_arg5) := by
  after_results_simp

theorem s2_keep_arg6 : after hostOps2 X (Proc.devRef .tc main_arg6) = X (Proc.devRef .tc main_arg6) := by
  after_results_simp

theorem s2_keep_arg7 : after hostOps2 X (Proc.devRef .tc main_arg7) = X (Proc.devRef .tc main_arg7) := by
  after_results_simp

theorem s2_keep_arg8 : after hostOps2 X (Proc.devRef .tc main_arg8) = X (Proc.devRef .tc main_arg8) := by
  after_results_simp

theorem s2_keep_arg9 : after hostOps2 X (Proc.devRef .tc main_arg9) = X (Proc.devRef .tc main_arg9) := by
  after_results_simp

theorem s2_keep_arg10 : after hostOps2 X (Proc.devRef .tc main_arg10) = X (Proc.devRef .tc main_arg10) := by
  after_results_simp

end Cert.KernelIdeal.Host

end
-- ==== Proof.KernelChain.lean ====
import proofs.«134776_j30013231464923_1_alg».proof.Proof.KernelRun
import proofs.«134776_j30013231464923_1_alg».proof.Proof.Layer0
import proofs.«134776_j30013231464923_1_alg».proof.Proof.Layer1
import proofs.«134776_j30013231464923_1_alg».proof.Proof.Layer2
import proofs.«134776_j30013231464923_1_alg».proof.Proof.HostStretches
import proofs.«134776_j30013231464923_1_alg».proof.Proof.RefLayers

/-!
# The kernel program's result is the reference's function of the arguments

The buffer contents at the six boundaries of the program (`Gen.W0` … `Gen.W6`) are followed from the launch.  The
edge list's source and target rows are computed before the first region and never overwritten.  The first region's
result array is the reference's first layer (the region's dense step of the means the host prepared, which are the
reference's); the second stretch prepares the reference's `mean2` of that array, so the second region's result is
the reference's second layer; likewise the third.  The run of the program therefore ends with the result buffer at
the reference's result, stated as the same function of the launch contents of the eleven arguments.
-/

set_option maxRecDepth 16384

noncomputable section

namespace Cert.KernelIdeal.Chain

open Cert.KernelIdeal Cert.KernelIdeal.Gen Cert.SageLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The edge rows and the later arguments at the boundaries -/

theorem w1_src (c : Dev nD) : W1 m ρ c (Proc.devRef .tc main_v1) = Cert.ReferenceIdeal.Read.val_main_v1 (F := Ideal) (m ((c : Thread nD τ).loc main_arg1)) := Host.s0_src (W0 m ρ c)
theorem w1_dst (c : Dev nD) : W1 m ρ c (Proc.devRef .tc main_v3) = Cert.ReferenceIdeal.Read.val_main_v3 (F := Ideal) (m ((c : Thread nD τ).loc main_arg1)) := Host.s0_dst (W0 m ρ c)
theorem w2_src (c : Dev nD) : W2 m ρ c (Proc.devRef .tc main_v1) = Cert.ReferenceIdeal.Read.val_main_v1 (F := Ideal) (m ((c : Thread nD τ).loc main_arg1)) :=
  (W2_of_ne m ρ c main_v1 (by decide)).trans (w1_src m ρ c)
theorem w2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (w1_dst m ρ c)
theorem w2_arg5 (c : Dev nD) : W2 m ρ c (Proc.devRef .tc main_arg5) = (m ((c : Thread nD τ).loc main_arg5)) :=
  (W2_of_ne m ρ c main_arg5 (by decide)).trans (Host.s0_keep_arg5 (W0 m ρ c))
theorem w2_arg6 (c : Dev nD) : W2 m ρ c (Proc.devRef .tc main_arg6) = (m ((c : Thread nD τ).loc main_arg6)) :=
  (W2_of_ne m ρ c main_arg6 (by decide)).trans (Host.s0_keep_arg6 (W0 m ρ c))
theorem w2_arg7 (c : Dev nD) : W2 m ρ c (Proc.devRef .tc main_arg7) = (m ((c : Thread nD τ).loc main_arg7)) :=
  (W2_of_ne m ρ c main_arg7 (by decide)).trans (Host.s0_keep_arg7 (W0 m ρ c))
theorem w2_arg8 (c : Dev nD) : W2 m ρ c (Proc.devRef .tc main_arg8) = (m ((c : Thread nD τ).loc main_arg8)) :=
  (W2_of_ne m ρ c main_arg8 (by decide)).trans (Host.s0_keep_arg8 (W0 m ρ c))
theorem w2_arg9 (c : Dev nD) : W2 m ρ c (Proc.devRef .tc main_arg9) = (m ((c : Thread nD τ).loc main_arg9)) :=
  (W2_of_ne m ρ c main_arg9 (by decide)).trans (Host.s0_keep_arg9 (W0 m ρ c))
theorem w2_arg10 (c : Dev nD) : W2 m ρ c (Proc.devRef .tc main_arg10) = (m ((c : Thread nD τ).loc main_arg10)) :=
  (W2_of_ne m ρ c main_arg10 (by decide)).trans (Host.s0_keep_arg10 (W0 m ρ c))
theorem w4_src (c : Dev nD) : W4 m ρ c (Proc.devRef .tc main_v1) = Cert.ReferenceIdeal.Read.val_main_v1 (F := Ideal) (m ((c : Thread nD τ).loc main_arg1)) :=
  (W4_of_ne m ρ c main_v1 (by decide)).trans ((Host.s1_keep_v1 (W2 m ρ c)).trans (w2_src m ρ c))
theorem w4_dst (c : Dev nD) : W4 m ρ c (Proc.devRef .tc main_v3) = Cert.ReferenceIdeal.Read.val_main_v3 (F := Ideal) (m ((c : Thread nD τ).loc main_arg1)) :=
  (W4_of_ne m ρ c main_v3 (by decide)).trans ((Host.s1_keep_v3 (W2 m ρ c)).trans (w2_dst m ρ c))
theorem w4_arg8 (c : Dev nD) : W4 m ρ c (Proc.devRef .tc main_arg8) = (m ((c : Thread nD τ).loc main_arg8)) :=
  (W4_of_ne m ρ c main_arg8 (by decide)).trans ((Host.s1_keep_arg8 (W2 m ρ c)).trans (w2_arg8 m ρ c))
theorem w4_arg9 (c : Dev nD) : W4 m ρ c (Proc.devRef .tc main_arg9) = (m ((c : Thread nD τ).loc main_arg9)) :=
  (W4_of_ne m ρ c main_arg9 (by decide)).trans ((Host.s1_keep_arg9 (W2 m ρ c)).trans (w2_arg9 m ρ c))
theorem w4_arg10 (c : Dev nD) : W4 m ρ c (Proc.devRef .tc main_arg10) = (m ((c : Thread nD τ).loc main_arg10)) :=
  (W4_of_ne m ρ c main_arg10 (by decide)).trans ((Host.s1_keep_arg10 (W2 m ρ c)).trans (w2_arg10 m ρ c))

/-! ## The three regions' result arrays -/

/-- After the first region its result array holds the reference's first layer. -/
theorem layer1_eq (c : Dev nD) : W2 m ρ c (Proc.devRef .tc main_v24) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (W2_arr m ρ c 5).trans ((Layer0.final (V1 m ρ) c).trans ((Layer0.result_congr (V1 m ρ) c
    (Host.s0_mean (W0 m ρ c)) (Host.s0_keep_arg0 (W0 m ρ c)) (Host.s0_keep_arg2 (W0 m ρ c)) (Host.s0_keep_arg4 (W0 m ρ c))
    (fun q => Host.s0_bias (W0 m ρ c) q)).trans
    (Cert.ReferenceIdeal.Layers.layer1 _ _ _ _ _).symm))

/-- After the second region its result array holds the reference's second layer. -/
theorem layer2_eq (c : Dev nD) : W4 m ρ c (Proc.devRef .tc main_v45) = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W4_arr m ρ c 5).trans ((Layer1.final (V3 m ρ) c).trans ((Layer1.result_congr (V3 m ρ) c
    ((Host.s1_mean (W2 m ρ c) (m ((c : Thread nD τ).loc main_arg1)) (w2_src m ρ c) (w2_dst m ρ c)).trans
      (congrArg (fun h => Cert.ReferenceIdeal.Layers.mean2 (F := Ideal) h (m ((c : Thread nD τ).loc main_arg1))) (layer1_eq m ρ c)))
    ((Host.s1_keep_v24 (W2 m ρ c)).trans (layer1_eq m ρ c))
    ((Host.s1_keep_arg5 (W2 m ρ c)).trans (w2_arg5 m ρ c))
    ((Host.s1_keep_arg7 (W2 m ρ c)).trans (w2_arg7 m ρ c))
    (fun q => (Host.s1_bias (W2 m ρ c) q).trans
      (congrArg (fun f : (⟨1, ![64]⟩ : Shape).Idx → EReal => f (ix1 q)) (w2_arg6 m ρ c)))).trans
    (Cert.ReferenceIdeal.Layers.layer2 _ _ _ _ _ _ _ _).symm))

/-- After the third region its result array holds the reference's result. -/
theorem layer3_eq (c : Dev nD) : W6 m ρ c (Proc.devRef .tc main_v66) = (Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_arr m ρ c 5).trans ((Layer2.final (V5 m ρ) c).trans ((Layer2.result_congr (V5 m ρ) c
    ((Host.s2_mean (W4 m ρ c) (m ((c : Thread nD τ).loc main_arg1)) (w4_src m ρ c) (w4_dst m ρ c)).trans
      (congrArg (fun h => Cert.ReferenceIdeal.Layers.mean3 (F := Ideal) h (m ((c : Thread nD τ).loc main_arg1))) (layer2_eq m ρ c)))
    ((Host.s2_keep_v45 (W4 m ρ c)).trans (layer2_eq m ρ c))
    ((Host.s2_keep_arg8 (W4 m ρ c)).trans (w4_arg8 m ρ c))
    ((Host.s2_keep_arg10 (W4 m ρ c)).trans (w4_arg10 m ρ c))
    (fun q => (Host.s2_bias (W4 m ρ c) q).trans
      (congrArg (fun f : (⟨1, ![68]⟩ : Shape).Idx → EReal => f (ix1 q)) (w4_arg9 m ρ c)))).trans
    (Cert.ReferenceIdeal.Layers.layer3 _ _ _ _ _ _ _ _ _ _ _).symm))

/-! ## The run -/

/-- Every weakly fair execution of the kernel program terminates without a fault, with the result buffer at the
    reference's function of the arguments' launch contents and the arguments as launched. -/
theorem run_value : θ_run defs (onTc (τ := τ) (main (F := Ideal))) ⟨m, fun _ => 0, ρ⟩ (fun r => ∀ c : Dev nD,
      r.2.mem ((c.tc : Thread nD τ).loc main_v66) = (Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (layer3_eq m ρ c), (h c).2⟩) (RunValue.run_out m ρ)

end Cert.KernelIdeal.Chain

end
-- ==== Proof.lean ====
/-
  The certificate of a three-layer mean-aggregating graph network: the kernel program runs each layer's dense step
  `mean · Wl + x · Wr + b` (then a maximum with zero in the first two layers) as a pipelined region over ten blocks of
  10000 rows, and prepares each layer's neighbourhood means on the host by the reference's own gather, scatter-add
  and division; the reference computes `(mean · Wl + b) + x · Wr` on the host throughout.

  At the exact instance the two programs compute one function of the eleven arguments.  The roundings to bf16 before
  the matrix unit are the identity there; a product accumulated from zero is the plain sum over the shared axis; the
  ten row blocks tile every result array; and the kernel's order of additions `(A + B) + b` against the reference's
  `(A + b) + B` is commutativity and associativity of addition on the extended reals, which hold at the infinities
  too, so the precondition (finite inputs) is never opened.  No operation was rewritten by the idealization, so the
  preservation claim is `True`.

  The three frames are the programs' runs with their result dropped: the two kernel programs' by the generated
  frame, the reference's by its generated run.
-/
import proofs.«134776_j30013231464923_1_alg».proof.Defs
import proofs.«134776_j30013231464923_1_alg».proof.Proof.Gen.Kernel
import proofs.«134776_j30013231464923_1_alg».proof.Proof.Gen.Kernel.Skeleton
import proofs.«134776_j30013231464923_1_alg».proof.Proof.Gen.Kernel.Launch
import proofs.«134776_j30013231464923_1_alg».proof.Proof.Gen.Kernel.Points
import proofs.«134776_j30013231464923_1_alg».proof.Proof.Gen.Kernel.Frame
import proofs.«134776_j30013231464923_1_alg».proof.Proof.Gen.KernelIdeal
import proofs.«134776_j30013231464923_1_alg».proof.Proof.Gen.KernelIdeal.Skeleton
import proofs.«134776_j30013231464923_1_alg».proof.Proof.Gen.KernelIdeal.Launch
import proofs.«134776_j30013231464923_1_alg».proof.Proof.Gen.KernelIdeal.Points
import proofs.«134776_j30013231464923_1_alg».proof.Proof.Gen.KernelIdeal.Frame
import proofs.«134776_j30013231464923_1_alg».proof.Proof.Gen.ReferenceIdeal
import proofs.«134776_j30013231464923_1_alg».proof.Proof.Gen.ReferenceIdeal.Run
import proofs.«134776_j30013231464923_1_alg».proof.Proof.Gen.ReferenceIdeal.Read
import proofs.«134776_j30013231464923_1_alg».proof.Proof.Gen.Pre_finite_inputs
import proofs.«134776_j30013231464923_1_alg».proof.Proof.KernelChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run to the end, and both result buffers hold the
    reference's function of the kernel program's arguments: the kernel program's by following its three regions,
    the reference's by its run, rewritten along the agreement. -/
theorem algebraic : Cert.algebraic_KernelIdeal_ReferenceIdeal := by
  intro m ρ m' ρ' _ hagree
  refine ⟨_, Cert.KernelIdeal.Chain.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v80_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
